-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x1 : Shape := ⟨2, ![2048, 1]⟩
abbrev S1 : Shape := ⟨1, ![1]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x1 .f32) (main_arg2 : FVec F S1 .f32) (main_arg3 : FVec F S2048x2048 .f32) (main_arg4 : FVec F S2048 .f32) (main_arg5 : FVec F S2048x2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S4096x2048 : Shape := ⟨2, ![4096, 2048]⟩
abbrev S2048x1 : Shape := ⟨2, ![2048, 1]⟩
abbrev S1 : Shape := ⟨1, ![1]⟩
abbrev S2048x2048 : Shape := ⟨2, ![2048, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1, .f32⟩
  | .hbm, ⟨2, _⟩ => ⟨S1, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S1x1, .f32⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048x1_S1x2048 : S2048x1.ShapeCasts S1x2048
  shapeCasts_S1_S1x1 : S1.ShapeCasts S1x1
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S256x1_S256x2048 : S256x1.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x1 : Shape := ⟨2, ![2048, 1]⟩
abbrev S1 : Shape := ⟨1, ![1]⟩
abbrev S2048x2048 : Shape := ⟨2, ![2048, 2048]⟩
abbrev S2048 : Shape := ⟨1, ![2048]⟩
abbrev S4096x1 : Shape := ⟨2, ![4096, 1]⟩
abbrev S1x1 : Shape := ⟨2, ![1, 1]⟩
abbrev S_ : Shape := ⟨0, ![]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1, .f32⟩
  | .hbm, ⟨2, _⟩ => ⟨S1, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S4096x1, .f32⟩
  | .hbm, ⟨8, _⟩ => ⟨S1x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  dot_S4096x2048_S2048x1_S4096x1_1_0_0_1_n_n_wf : DotDims.WF S4096x2048 S2048x1 S4096x1 [1] [0] [0] [1] [] []
  dot_S4096x2048_S2048x2048_S4096x2048_1_0_0_1_n_n_wf : DotDims.WF S4096x2048 S2048x2048 S4096x2048 [1] [0] [0] [1] [] []

variable [Facts₀]

def dot_S4096x2048_S2048x1_S4096x1_1_0_0_1_n_n : DotDims S4096x2048 S2048x1 S4096x1 where
  lhsContracting := [1]
  rhsContracting := [0]
  lhsNonContracting := [0]
  rhsNonContracting := [1]
  lhsBatch := []
  rhsBatch := []
  wf := dot_S4096x2048_S2048x1_S4096x1_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.RouterSpec.lean ====
/-
  The soft two-way router as a function of its argument arrays, entry by entry, on the extended reals.

  For a token row `r` and an output column `j`, over `x : [4096, 2048]`, gate weights `wg : [2048, 1]`, gate bias
  `bg : [1]`, and per branch a weight matrix `[2048, 2048]` and a bias `[2048]`:
      branch  = max (∑ₖ x[r, k] · w[k, j] + β[j]) 0                (a linear map, then relu)
      gate    = 1 / (1 + e^{-(∑ₖ x[r, k] · wg[k, 0] + bg[0])})       (the logistic function of a row's logit)
  One program blends the two branches as   right + gate · (left − right),
  the other as                            gate · left + (1 − gate) · right.
  On the reals these are one number (`ring`). On the extended reals the identity needs its three operands real:
  `left − right` is not a difference of reals once a branch is infinite, and the product does not distribute over it.
  The gate is real whatever its logit is (the logistic function sends `⊥` to 0 and `⊤` to 1); a branch is real as soon as
  every entry of `x`, of its weight matrix and of its bias is, because a finite sum of products of reals is real.
-/
import Idealize.ShloMosaic.PureOps.Ideal
import Idealize.ShloMosaic.Lib.ValueIdx

noncomputable section

namespace Cert.Router

open Idealize.ShloMosaic Idealize.ShloMosaic.ValueIdx

/-- A matrix and a vector of extended reals over literal extents. -/
abbrev Mat (a b : ℕ) : Type := (⟨2, ![a, b]⟩ : Shape).Idx → EReal
abbrev Vct (a : ℕ) : Type := (⟨1, ![a]⟩ : Shape).Idx → EReal

/-- One branch at row `r`, column `j`: the row's product with column `j` of the weights, plus the bias, clipped below at 0. -/
def branch (x : Mat 4096 2048) (w : Mat 2048 2048) (β : Vct 2048) (r : Fin 4096) (j : Fin 2048) : EReal :=
  max ((∑ k : Fin 2048, x (ix2 r k) * w (ix2 k j)) + β (ix1 j)) 0

/-- The gate of row `r`: the logistic function of the row's logit. -/
def gate (x : Mat 4096 2048) (wg : Mat 2048 1) (bg : Vct 1) (r : Fin 4096) : EReal :=
  Ideal.logistic ((∑ k : Fin 2048, x (ix2 r k) * wg (ix2 k (0 : Fin 1))) + bg (ix1 (0 : Fin 1)))

/-- The blend as `right + gate · (left − right)`. -/
def blend (x : Mat 4096 2048) (wg : Mat 2048 1) (bg : Vct 1) (wl : Mat 2048 2048) (bl : Vct 2048) (wr : Mat 2048 2048)
    (br : Vct 2048) (r : Fin 4096) (j : Fin 2048) : EReal :=
  branch x wr br r j + gate x wg bg r * (branch x wl bl r j - branch x wr br r j)

/-- The blend as `gate · left + (1 − gate) · right`. -/
def blendConvex (x : Mat 4096 2048) (wg : Mat 2048 1) (bg : Vct 1) (wl : Mat 2048 2048) (bl : Vct 2048) (wr : Mat 2048 2048)
    (br : Vct 2048) (r : Fin 4096) (j : Fin 2048) : EReal :=
  gate x wg bg r * branch x wl bl r j + (1 - gate x wg bg r) * branch x wr br r j

/-- The blend as an array over `[4096, 2048]`. -/
def blendArr (x : Mat 4096 2048) (wg : Mat 2048 1) (bg : Vct 1) (wl : Mat 2048 2048) (bl : Vct 2048) (wr : Mat 2048 2048)
    (br : Vct 2048) : Mat 4096 2048 :=
  fun i => blend x wg bg wl bl wr br (i 0) (i 1)

/-! ## Real values -/

/-- A finite sum of reals, summed as extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of products of reals is real. -/
theorem sum_mul_real {ι : Type} [Fintype ι] (f g : ι → EReal) (hf : ∀ k, ∃ a : ℝ, f k = a) (hg : ∀ k, ∃ a : ℝ, g k = a) :
    ∃ s : ℝ, ∑ k, f k * g k = s := by
  choose f' hf' using hf
  choose g' hg' using hg
  refine ⟨∑ k, f' k * g' k, ?_⟩
  rw [← coe_sum]
  exact Finset.sum_congr rfl fun k _ => by rw [hf' k, hg' k, EReal.coe_mul]

/-- The logistic function takes real values at every extended real. -/
theorem logistic_real (z : EReal) : ∃ p : ℝ, Ideal.logistic z = p := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The larger of two reals, taken among the extended reals, is the real maximum (the inclusion of the reals is monotone). -/
theorem coe_max (a b : ℝ) : max (a : EReal) (b : EReal) = ((max a b : ℝ) : EReal) :=
  (EReal.coe_strictMono.monotone.map_max).symm

/-- A branch over real entries is real. -/
theorem branch_real (x : Mat 4096 2048) (w : Mat 2048 2048) (β : Vct 2048) (hx : ∀ i, ∃ a : ℝ, x i = a)
    (hw : ∀ i, ∃ a : ℝ, w i = a) (hβ : ∀ i, ∃ a : ℝ, β i = a) (r : Fin 4096) (j : Fin 2048) :
    ∃ e : ℝ, branch x w β r j = e := by
  obtain ⟨s, hs⟩ := sum_mul_real (fun k : Fin 2048 => x (ix2 r k)) (fun k => w (ix2 k j)) (fun k => hx _) (fun k => hw _)
  obtain ⟨b, hb⟩ := hβ (ix1 j)
  refine ⟨max (s + b) 0, ?_⟩
  unfold branch
  rw [hs, hb, ← EReal.coe_add, ← EReal.coe_zero, coe_max]

/-! ## The two blends agree -/

/-- For three reals the two arrangements are one number. -/
theorem blend_law (p l r : ℝ) : (r : EReal) + (p : EReal) * ((l : EReal) - (r : EReal)) = (p : EReal) * (l : EReal) + (1 - (p : EReal)) * (r : EReal) := by
  rw [← EReal.coe_sub, ← EReal.coe_mul, ← EReal.coe_add, ← EReal.coe_one, ← EReal.coe_sub, ← EReal.coe_mul, ← EReal.coe_mul,
    ← EReal.coe_add]
  exact congrArg _ (by ring)

/-- Over real entries of `x` and of the two branches' weights and biases, the convex blend is the blend, at every entry
    (the gate's weights and bias may be any extended reals). -/
theorem blendConvex_eq_blend (x : Mat 4096 2048) (wg : Mat 2048 1) (bg : Vct 1) (wl : Mat 2048 2048) (bl : Vct 2048)
    (wr : Mat 2048 2048) (br : Vct 2048) (hx : ∀ i, ∃ a : ℝ, x i = a) (hwl : ∀ i, ∃ a : ℝ, wl i = a)
    (hbl : ∀ i, ∃ a : ℝ, bl i = a) (hwr : ∀ i, ∃ a : ℝ, wr i = a) (hbr : ∀ i, ∃ a : ℝ, br i = a) (r : Fin 4096) (j : Fin 2048) :
    blendConvex x wg bg wl bl wr br r j = blend x wg bg wl bl wr br r j := by
  obtain ⟨p, hp⟩ := logistic_real ((∑ k : Fin 2048, x (ix2 r k) * wg (ix2 k (0 : Fin 1))) + bg (ix1 (0 : Fin 1)))
  obtain ⟨l, hl⟩ := branch_real x wl bl hx hwl hbl r j
  obtain ⟨e, he⟩ := branch_real x wr br hx hwr hbr r j
  unfold blendConvex blend gate
  rw [hp, hl, he]
  exact (blend_law p l e).symm

end Cert.Router

end
-- ==== Proof.LibColumnLayout.lean ====
/-
  Column layouts read at an index given by coordinates.

  A row reduction kept as a column — a sum over the lanes of an `[a, b]` array, viewed `[a, 1]` and spread back over
  `[a, b]` — passes through three layout steps that each read ONE entry of their operand:
  • a vector `[a]` viewed as a column `[a, 1]` reads, at `(i, u)`, entry `i`;
  • a column `[a, 1]` spread over `[a, b]` reads, at `(i, c)`, the column's entry in row `i`;
  • the one entry of a `[1, 1]` array taken out at position `(0, 0)` is the array at `(0, 0)`.
  Each is the general read-at-an-index lemma of its operation with both indices written by coordinates, so that it
  applies to a printed operation by unification, whatever proof of the shape relation the operation carries.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry in row `i`. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The entry of a `[1, 1]` array extracted at the static position `(0, 0)` is the array at `(0, 0)`. -/
theorem extractAt_11_apply (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) :=
  congrArg x (funext fun a => Fin.ext (by
    match a with
    | ⟨0, _⟩ => rfl
    | ⟨1, _⟩ => rfl))

end Idealize.ShloMosaic.ValueIdx
-- ==== Proof.RouterBody.lean ====
/-
  What the kernel's body stores, read at one entry of its `[256, 2048]` block.

  The body loads a block `x` of 256 token rows, the gate's weight row `g : [1, 2048]` and bias `c : [1, 1]`, and per
  branch a weight matrix `[2048, 2048]` and a bias row `[1, 2048]`. At row `p` and column `q` of the block it stores
      R + P · (L − R),   L = max (∑ₖ x[p, k] · wl[k, q] + bl[0, q]) 0,   R likewise from the other branch,
      P = logistic (∑ₖ x[p, k] · g[0, k] + c[0, 0]).
  Nothing but indices moves: the change of format on the way into a matrix product is the identity on extended reals, a
  product into a zero accumulator is the plain sum over the contracted index, the lane reduction of `x · g` is the sum over
  the lanes of row `p`, and the gate's column `[256, 1]` spread over the block reads its row's one entry.
-/
import proofs.«101099_g16621523435664_cont_week2b_703_2_alg».proof.Proof.Gen.KernelIdeal.Skeleton
import proofs.«101099_g16621523435664_cont_week2b_703_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RouterBody

open Cert.KernelIdeal Cert.KernelIdeal.Gen Idealize.ShloMosaic Idealize.ShloMosaic.ValueIdx

/-- The lane reduction of a `[256, 2048]` vector, at row `p`: the sum over that row's lanes. -/
theorem rowSum_apply (v : FVec Ideal S256x2048 .f32) (h : S256x2048.Reduces [1] S256) (hφ : FKind.Formats .f32)
    (hacc : (0x00000000#32 : BitVec 32) = 0x00000000#32) (p : Fin 256) :
    multiReduction .add [1] S256 v 0x00000000#32 h hφ hacc (ix1 p) = ∑ k : Fin 2048, v (ix2 p k) :=
  (Ideal.multiReduction_add_single v 0x00000000#32 h hφ hacc (ix1 p)).trans
    (Finset.sum_congr rfl fun k _ => congrArg v (funext fun a => Fin.ext (by
      match a with
      | ⟨0, _⟩ => rfl
      | ⟨1, _⟩ => rfl)))

/-- The two operand indices of the block's matrix product at output entry `(p, q)` and contraction index `k`: `(p, k)`
    on the left, `(k, q)` on the right. -/
theorem lhs_0 (i : S256x2048.Idx) (z : dot_S256x2048_S2048x2048_S256x2048_1_0_0_1_n_n.contr.Idx) :
    (dot_S256x2048_S2048x2048_S256x2048_1_0_0_1_n_n.lhsIdx i z 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_1 (i : S256x2048.Idx) (z : dot_S256x2048_S2048x2048_S256x2048_1_0_0_1_n_n.contr.Idx) :
    (dot_S256x2048_S2048x2048_S256x2048_1_0_0_1_n_n.lhsIdx i z 1).val = (z ⟨0, by decide⟩).val :=
  dot_S256x2048_S2048x2048_S256x2048_1_0_0_1_n_n.lhsIdx_val_of_single rfl i z
theorem rhs_0 (i : S256x2048.Idx) (z : dot_S256x2048_S2048x2048_S256x2048_1_0_0_1_n_n.contr.Idx) :
    (dot_S256x2048_S2048x2048_S256x2048_1_0_0_1_n_n.rhsIdx i z 0).val = (z ⟨0, by decide⟩).val :=
  dot_S256x2048_S2048x2048_S256x2048_1_0_0_1_n_n.rhsIdx_val_of_single rfl i z
theorem rhs_1 (i : S256x2048.Idx) (z : dot_S256x2048_S2048x2048_S256x2048_1_0_0_1_n_n.contr.Idx) :
    (dot_S256x2048_S2048x2048_S256x2048_1_0_0_1_n_n.rhsIdx i z 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The block's matrix product into a zero accumulator, at `(p, q)`: the sum over `k` of left `(p, k)` times right `(k, q)`. -/
theorem product_apply (l : FVec Ideal S256x2048 .bf16) (r : FVec Ideal S2048x2048 .bf16) (p : Fin 256) (q : Fin 2048) :
    matmul dot_S256x2048_S2048x2048_S256x2048_1_0_0_1_n_n none l r (constant (F := Ideal) S256x2048 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun a => Fin.ext (by
    match a with
    | ⟨0, _⟩ => exact lhs_0 _ _
    | ⟨1, _⟩ => exact (lhs_1 _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun a => Fin.ext (by
    match a with
    | ⟨0, _⟩ => exact (rhs_0 _ _).trans hk
    | ⟨1, _⟩ => exact rhs_1 _ _)
  rw [el, er]

/-- One branch of the body at `(p, q)`: the product row by column, plus the bias row's entry, clipped below at 0. -/
def branchAt (x : Vec Ideal S256x2048 .f32) (w : Vec Ideal S2048x2048 .bf16) (β : Vec Ideal S1x2048 .f32) (p : Fin 256) (q : Fin 2048) : EReal :=
  max ((∑ k : Fin 2048, x (ix2 p k) * w (ix2 k q)) + β (ix2 (0 : Fin 1) q)) 0

/-- The gate of row `p` of the block. -/
def gateAt (x : Vec Ideal S256x2048 .f32) (g : Vec Ideal S1x2048 .f32) (c : Vec Ideal S1x1 .f32) (p : Fin 256) : EReal :=
  Ideal.logistic ((∑ k : Fin 2048, x (ix2 p k) * g (ix2 (0 : Fin 1) k)) + c (ix2 (0 : Fin 1) (0 : Fin 1)))

/-- THE STORED VALUE at entry `(p, q)` of the block. -/
theorem stored_apply (x : Vec Ideal S256x2048 .f32) (g : Vec Ideal S1x2048 .f32) (c : Vec Ideal S1x1 .f32)
    (wl : Vec Ideal S2048x2048 .bf16) (bl : Vec Ideal S1x2048 .f32) (wr : Vec Ideal S2048x2048 .bf16) (br : Vec Ideal S1x2048 .f32)
    (p : Fin 256) (q : Fin 2048) :
    k0_pay1 (F := Ideal) x g c wl bl wr br (ix2 p q)
      = branchAt x wr br p q + gateAt x g c p * (branchAt x wl bl p q - branchAt x wr br p q) := by
  unfold k0_pay1 branchAt gateAt
  simp only [addf_apply, mulf_apply, subf_apply, maximumf_apply, broadcast_apply, shapeCast_self, product_apply, truncf_apply,
    broadcastTo_1b_ab_apply, broadcastTo_a1_ab_apply, logistic, Ideal.logistic_def, shapeCast_a_a1_apply, rowSum_apply,
    extractAt_11_apply, Ideal.ofBits_def, Ideal.ofBits_zero_f32]
  congr 4
  exact (rowSum_apply _ _ _ _ p).trans (Finset.sum_congr rfl fun k _ => by rw [mulf_apply, broadcastTo_1b_ab_apply])

end Cert.KernelIdeal.RouterBody

end
-- ==== Proof.RouterBlocks.lean ====
/-
  From the blocks the grid points write back to the whole result array.

  The grid has 16 points; point `t` stages rows `256·t … 256·t + 255` of `x` and writes back the same rows of the result,
  while the six other operands are staged whole at every point. Before the region @main lays the gate's weight column
  `[2048, 1]` out as a row `[1, 2048]`, its bias `[1]` as `[1, 1]`, each branch's bias `[2048]` as a row `[1, 2048]`, and
  changes the format of the two weight matrices (the identity on extended reals): every staged entry is ONE entry of an
  argument array. So what point `t` writes back is block `t` of the blend of the argument arrays, the 16 blocks cover
  the `[4096, 2048]` array (row `r` lies in block `r / 256`), and the array ends holding the blend.
-/
import proofs.«101099_g16621523435664_cont_week2b_703_2_alg».proof.Proof.Gen.KernelIdeal.Value
import proofs.«101099_g16621523435664_cont_week2b_703_2_alg».proof.Proof.RouterBody
import proofs.«101099_g16621523435664_cont_week2b_703_2_alg».proof.Proof.RouterSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.RouterBlocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 16 grid points: `x`'s window and the result's move down the rows with the
    point, every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the region finds, as @main's operations before it leave them -/

theorem V_gateRow (c : Dev nD) : (V m c main_v0 : S1x2048.Idx → EReal)
    = shapeCast S1x2048 (m ((c : Thread nD τ).loc main_arg1)) shapeCasts_S2048x1_S1x2048 := by
  dsimp only [V, hostOps0]; after_results; rfl

theorem V_gateBias (c : Dev nD) : (V m c main_v1 : S1x1.Idx → EReal)
    = shapeCast S1x1 (m ((c : Thread nD τ).loc main_arg2)) shapeCasts_S1_S1x1 := by
  dsimp only [V, hostOps0]; after_results; rfl

theorem V_leftW (c : Dev nD) : (V m c main_v2 : S2048x2048.Idx → EReal) = (m ((c : Thread nD τ).loc main_arg3) : S2048x2048.Idx → EReal) := by
  dsimp only [V, hostOps0]; after_results; rfl

theorem V_rightW (c : Dev nD) : (V m c main_v3 : S2048x2048.Idx → EReal) = (m ((c : Thread nD τ).loc main_arg5) : S2048x2048.Idx → EReal) := by
  dsimp only [V, hostOps0]; after_results; rfl

theorem V_leftBias (c : Dev nD) : (V m c main_v4 : S1x2048.Idx → EReal)
    = shapeCast S1x2048 (m ((c : Thread nD τ).loc main_arg4)) shapeCasts_S2048_S1x2048 := by
  dsimp only [V, hostOps0]; after_results; rfl

theorem V_rightBias (c : Dev nD) : (V m c main_v5 : S1x2048.Idx → EReal)
    = shapeCast S1x2048 (m ((c : Thread nD τ).loc main_arg6)) shapeCasts_S2048_S1x2048 := by
  dsimp only [V, hostOps0]; after_results; rfl

/-! ## Each staged entry is one entry of an argument array -/

/-- Row `p` of the block of `x` at point `t` is row `256·t + p` of `x`. -/
theorem x_read (c : Dev nD) (t : Fin cfg0.N) (p : Fin 256) (k : Fin 2048) (r : Fin 4096) (hr : r.val = t.val * 256 + p.val) :
    (iblk m c 0 t : Vec Ideal S256x2048 .f32) (ix2 p k) = (m ((c : Thread nD τ).loc main_arg0) : S4096x2048.Idx → EReal) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- The gate's staged weight row at lane `k` is the weight column's entry `k`. -/
theorem g_read (c : Dev nD) (t : Fin cfg0.N) (k : Fin 2048) :
    (iblk m c 1 t : Vec Ideal S1x2048 .f32) (ix2 (0 : Fin 1) k) = (m ((c : Thread nD τ).loc main_arg1) : S2048x1.Idx → EReal) (ix2 k (0 : Fin 1)) := by
  obtain ⟨-, -, e0, e1, -⟩ := idx_facts t
  unfold iblk
  rw [View.read_apply]
  show V m c main_v0 _ = _
  rw [V_gateRow]
  refine shapeCast_apply _ _ _ _ ?_
  show (S2048x1.rowMajor (ix2 k (0 : Fin 1))).val = (S1x2048.rowMajor (((cfg0.win 1).blk t).view.emb (ix2 (0 : Fin 1) k))).val
  rw [Shape.rowMajor_val_two, Shape.rowMajor_val_two]
  show k.val * 1 + 0 = (win0_1.index t (0 : Fin 2) * 1 + 1 * 0) * 2048 + (win0_1.index t (1 : Fin 2) * 2048 + 1 * k.val)
  rw [e0, e1]; omega

/-- The gate's staged bias is the bias array's one entry. -/
theorem c_read (c : Dev nD) (t : Fin cfg0.N) :
    (iblk m c 2 t : Vec Ideal S1x1 .f32) (ix2 (0 : Fin 1) (0 : Fin 1)) = (m ((c : Thread nD τ).loc main_arg2) : S1.Idx → EReal) (ix1 (0 : Fin 1)) := by
  obtain ⟨-, -, -, -, e0, e1, -⟩ := idx_facts t
  unfold iblk
  rw [View.read_apply]
  show V m c main_v1 _ = _
  rw [V_gateBias]
  refine shapeCast_apply _ _ _ _ ?_
  show (S1.rowMajor (ix1 (0 : Fin 1))).val = (S1x1.rowMajor (((cfg0.win 2).blk t).view.emb (ix2 (0 : Fin 1) (0 : Fin 1)))).val
  rw [Shape.rowMajor_val_one, Shape.rowMajor_val_two]
  show 0 = (win0_2.index t (0 : Fin 2) * 1 + 1 * 0) * 1 + (win0_2.index t (1 : Fin 2) * 1 + 1 * 0)
  rw [e0, e1]

/-- The left branch's staged weights are the argument's, entry by entry. -/
theorem wl_read (c : Dev nD) (t : Fin cfg0.N) (k q : Fin 2048) :
    (iblk m c 3 t : Vec Ideal S2048x2048 .bf16) (ix2 k q) = (m ((c : Thread nD τ).loc main_arg3) : S2048x2048.Idx → EReal) (ix2 k q) := by
  obtain ⟨-, -, -, -, -, -, e0, e1, -⟩ := idx_facts t
  unfold iblk
  rw [View.read_apply]
  show V m c main_v2 _ = _
  rw [V_leftW]
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 2048 + 1 * q.val = q.val; rw [e1]; omega

/-- The left branch's staged bias row at lane `q` is the bias's entry `q`. -/
theorem bl_read (c : Dev nD) (t : Fin cfg0.N) (q : Fin 2048) :
    (iblk m c 4 t : Vec Ideal S1x2048 .f32) (ix2 (0 : Fin 1) q) = (m ((c : Thread nD τ).loc main_arg4) : S2048.Idx → EReal) (ix1 q) := by
  obtain ⟨-, -, -, -, -, -, -, -, e0, e1, -⟩ := idx_facts t
  unfold iblk
  rw [View.read_apply]
  show V m c main_v4 _ = _
  rw [V_leftBias]
  refine shapeCast_apply _ _ _ _ ?_
  show (S2048.rowMajor (ix1 q)).val = (S1x2048.rowMajor (((cfg0.win 4).blk t).view.emb (ix2 (0 : Fin 1) q))).val
  rw [Shape.rowMajor_val_one, Shape.rowMajor_val_two]
  show q.val = (win0_4.index t (0 : Fin 2) * 1 + 1 * 0) * 2048 + (win0_4.index t (1 : Fin 2) * 2048 + 1 * q.val)
  rw [e0, e1]; omega

/-- The right branch's staged weights are the argument's, entry by entry. -/
theorem wr_read (c : Dev nD) (t : Fin cfg0.N) (k q : Fin 2048) :
    (iblk m c 5 t : Vec Ideal S2048x2048 .bf16) (ix2 k q) = (m ((c : Thread nD τ).loc main_arg5) : S2048x2048.Idx → EReal) (ix2 k q) := by
  obtain ⟨-, -, -, -, -, -, -, -, -, -, e0, e1, -⟩ := idx_facts t
  unfold iblk
  rw [View.read_apply]
  show V m c main_v3 _ = _
  rw [V_rightW]
  refine congrArg _ (funext fun a => Fin.ext ?_)
  match a with
  | ⟨0, _⟩ => show win0_5.index t (0 : Fin 2) * 2048 + 1 * k.val = k.val; rw [e0]; omega
  | ⟨1, _⟩ => show win0_5.index t (1 : Fin 2) * 2048 + 1 * q.val = q.val; rw [e1]; omega

/-- The right branch's staged bias row at lane `q` is the bias's entry `q`. -/
theorem br_read (c : Dev nD) (t : Fin cfg0.N) (q : Fin 2048) :
    (iblk m c 6 t : Vec Ideal S1x2048 .f32) (ix2 (0 : Fin 1) q) = (m ((c : Thread nD τ).loc main_arg6) : S2048.Idx → EReal) (ix1 q) := by
  obtain ⟨-, -, -, -, -, -, -, -, -, -, -, -, e0, e1, -⟩ := idx_facts t
  unfold iblk
  rw [View.read_apply]
  show V m c main_v5 _ = _
  rw [V_rightBias]
  refine shapeCast_apply _ _ _ _ ?_
  show (S2048.rowMajor (ix1 q)).val = (S1x2048.rowMajor (((cfg0.win 6).blk t).view.emb (ix2 (0 : Fin 1) q))).val
  rw [Shape.rowMajor_val_one, Shape.rowMajor_val_two]
  show q.val = (win0_6.index t (0 : Fin 2) * 1 + 1 * 0) * 2048 + (win0_6.index t (1 : Fin 2) * 2048 + 1 * q.val)
  rw [e0, e1]; omega

/-! ## What a point writes back, the cover, the array after the run -/

/-- The array row that row `p` of point `t`'s block is. -/
def rowOf (t : Fin cfg0.N) (p : Fin 256) : Fin 4096 :=
  ⟨t.val * 256 + p.val, by have := t.isLt; have hN : cfg0.N = 16 := N_0; have := p.isLt; omega⟩

/-- The blend of the argument arrays as launched. -/
abbrev result (c : Dev nD) : Buf (Elt Ideal) ((c : Thread nD τ).loc main_v6) :=
  Cert.Router.blendArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT `t` WRITES BACK is block `t` of the blend. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S256x2048) hz, View.ld_unit_zero (S := S1x2048) hz, View.ld_unit_zero (S := S1x1) hz,
    View.ld_unit_zero (S := S2048x2048) hz]
  funext y
  obtain ⟨p, q, rfl⟩ : ∃ (p : Fin 256) (q : Fin 2048), y = ix2 p q := ⟨y 0, y 1, eq_ix2 y⟩
  obtain ⟨-, -, -, -, -, -, -, -, -, -, -, -, -, -, e0, e1⟩ := idx_facts t
  have hemb : ((cfg0.win 7).blk t).view.emb (ix2 p q) = ix2 (rowOf t p) q := funext fun a => Fin.ext (by
    match a with
    | ⟨0, _⟩ => show win0_7.index t (0 : Fin 2) * 256 + 1 * p.val = t.val * 256 + p.val; rw [e0]; omega
    | ⟨1, _⟩ => show win0_7.index t (1 : Fin 2) * 2048 + 1 * q.val = q.val; rw [e1]; omega)
  show k0_pay1 (iblk m c 0 t) (iblk m c 1 t) (iblk m c 2 t) (iblk m c 3 t) (iblk m c 4 t) (iblk m c 5 t) (iblk m c 6 t) (ix2 p q)
    = result m c (((cfg0.win 7).blk t).view.emb (ix2 p q))
  rw [hemb]
  refine (RouterBody.stored_apply (iblk m c 0 t) (iblk m c 1 t) (iblk m c 2 t) (iblk m c 3 t) (iblk m c 4 t) (iblk m c 5 t)
    (iblk m c 6 t) p q).trans ?_
  show _ = Cert.Router.blend _ _ _ _ _ _ _ (rowOf t p) q
  unfold RouterBody.branchAt RouterBody.gateAt Cert.Router.blend Cert.Router.branch Cert.Router.gate
  simp only [fun k => x_read m c t p k (rowOf t p) rfl, g_read m c t, c_read m c t, wl_read m c t, bl_read m c t, wr_read m c t,
    br_read m c t]

/-- An index of the array is in point `t`'s block iff each coordinate is in the block's range on its axis. -/
theorem mem_blk (t : Fin cfg0.N) (i : S4096x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v6).slice (win0_7.rect t)).set ↔ _
  rw [View.set_slice_whole, Rect.mem_set_unit]
  exact Iff.rfl

/-- THE COVER: row `r` of the array lies in the block of point `r / 256`. -/
theorem cover (i : S4096x2048.Idx) : ∃ t : Fin cfg0.N, (cfg0.win 7).flush t = true ∧ i ∈ ((cfg0.win 7).blk t).view.set := by
  have hN : cfg0.N = 16 := N_0
  have hi0 : (i 0).val < 4096 := (i 0).isLt
  have hi1 : (i 1).val < 2048 := (i 1).isLt
  obtain ⟨-, -, -, -, -, -, -, -, -, -, -, -, -, -, e0, e1⟩ := idx_facts ⟨(i 0).val / 256, by omega⟩
  refine ⟨⟨(i 0).val / 256, by omega⟩, flush0_7 _, ?_⟩
  rw [mem_blk]
  intro a
  match a with
  | ⟨0, _⟩ =>
    show win0_7.index ⟨(i 0).val / 256, _⟩ (0 : Fin 2) * 256 ≤ (i 0).val ∧ (i 0).val < win0_7.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win0_7.index ⟨(i 0).val / 256, _⟩ (1 : Fin 2) * 2048 ≤ (i 1).val ∧ (i 1).val < win0_7.index ⟨(i 0).val / 256, _⟩ (1 : Fin 2) * 2048 + 2048
    rw [e1]
    omega

/-- THE ARRAY after the run is the blend of the argument arrays. -/
theorem final (c : Dev nD) : (dats m 0 c).arrAt 7 cfg0.N = result m c :=
  (dats m 0 c).arrAt_eq_of_cover 7 (result m c) (fun t _ => flushed_eq m c t) cover

/-- THE RUN, READ: every weakly fair execution terminates with the result array at the blend of the argument arrays and
    the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.RouterBlocks

end
-- ==== Proof.RouterRef.lean ====
/-
  The reference's result, read at one entry, is the convex blend of the argument arrays.

  The reference computes, for the whole `[4096, 2048]` array at once, the gate as `1 / (1 + e^{-logit})` — the logit a
  product of `x` with the gate's one weight column plus its bias, spread over the rows —, each branch as a full matrix
  product plus its bias spread over the rows, clipped below at 0, and `gate · left + (1 − gate) · right`. Read at row `r`,
  column `j`, every spreading step reads one entry of its operand and every product is a sum over the contracted index;
  `1 / (1 + e^{-z})` with the word `1.0` denoting the real 1 is the logistic function of `z`.
-/
import proofs.«101099_g16621523435664_cont_week2b_703_2_alg».proof.Proof.Gen.ReferenceIdeal.Read
import proofs.«101099_g16621523435664_cont_week2b_703_2_alg».proof.Proof.RouterSpec

noncomputable section

namespace Cert.ReferenceIdeal.RouterRef

open Cert.ReferenceIdeal Cert.ReferenceIdeal.Read Idealize.ShloMosaic Idealize.ShloMosaic.ValueIdx

/-- The word `0x3F800000` (1.0) denotes the real 1. -/
theorem ofBits_one : Ideal.ofBits .f32 0x3F800000#32 = 1 := IdealRules.sign_bit.ideal_onePat .f32

/-! The entries each stage reads, by coordinates. -/

theorem gate_lhs (r : Fin 4096) (j : Fin 2048) (k : Fin 2048) : lidx_main_v0 (idx_main_v20 (ix2 r j)) k = ix2 r k :=
  funext fun a => Fin.ext (by match a with | ⟨0, _⟩ => rfl | ⟨1, _⟩ => rfl)
theorem gate_rhs (r : Fin 4096) (j : Fin 2048) (k : Fin 2048) : ridx_main_v0 (idx_main_v20 (ix2 r j)) k = ix2 k (0 : Fin 1) :=
  funext fun a => Fin.ext (by match a with | ⟨0, _⟩ => rfl | ⟨1, _⟩ => rfl)
theorem gate_bias (r : Fin 4096) (j : Fin 2048) : idx_main_v1 (idx_main_v2 (idx_main_v20 (ix2 r j))) = ix1 (0 : Fin 1) :=
  funext fun a => Fin.ext (by match a with | ⟨0, _⟩ => rfl)
theorem gate_lhs' (r : Fin 4096) (j : Fin 2048) (k : Fin 2048) : lidx_main_v0 (idx_main_v24 (ix2 r j)) k = ix2 r k :=
  funext fun a => Fin.ext (by match a with | ⟨0, _⟩ => rfl | ⟨1, _⟩ => rfl)
theorem gate_rhs' (r : Fin 4096) (j : Fin 2048) (k : Fin 2048) : ridx_main_v0 (idx_main_v24 (ix2 r j)) k = ix2 k (0 : Fin 1) :=
  funext fun a => Fin.ext (by match a with | ⟨0, _⟩ => rfl | ⟨1, _⟩ => rfl)
theorem gate_bias' (r : Fin 4096) (j : Fin 2048) : idx_main_v1 (idx_main_v2 (idx_main_v24 (ix2 r j))) = ix1 (0 : Fin 1) :=
  funext fun a => Fin.ext (by match a with | ⟨0, _⟩ => rfl)
theorem left_lhs (r : Fin 4096) (j : Fin 2048) (k : Fin 2048) : lidx_main_v10 (ix2 r j) k = ix2 r k :=
  funext fun a => Fin.ext (by match a with | ⟨0, _⟩ => rfl | ⟨1, _⟩ => rfl)
theorem left_rhs (r : Fin 4096) (j : Fin 2048) (k : Fin 2048) : ridx_main_v10 (ix2 r j) k = ix2 k j :=
  funext fun a => Fin.ext (by match a with | ⟨0, _⟩ => rfl | ⟨1, _⟩ => rfl)
theorem left_bias (r : Fin 4096) (j : Fin 2048) : idx_main_v11 (idx_main_v12 (ix2 r j)) = ix1 j :=
  funext fun a => Fin.ext (by match a with | ⟨0, _⟩ => rfl)
theorem right_lhs (r : Fin 4096) (j : Fin 2048) (k : Fin 2048) : lidx_main_v15 (ix2 r j) k = ix2 r k :=
  funext fun a => Fin.ext (by match a with | ⟨0, _⟩ => rfl | ⟨1, _⟩ => rfl)
theorem right_rhs (r : Fin 4096) (j : Fin 2048) (k : Fin 2048) : ridx_main_v15 (ix2 r j) k = ix2 k j :=
  funext fun a => Fin.ext (by match a with | ⟨0, _⟩ => rfl | ⟨1, _⟩ => rfl)
theorem right_bias (r : Fin 4096) (j : Fin 2048) : idx_main_v16 (idx_main_v17 (ix2 r j)) = ix1 j :=
  funext fun a => Fin.ext (by match a with | ⟨0, _⟩ => rfl)

/-- THE REFERENCE'S RESULT at row `r`, column `j`. -/
theorem result_apply (x0 : (⟨S4096x2048, .f32⟩ : BufTy).Contents (Elt Ideal)) (x1 : (⟨S2048x1, .f32⟩ : BufTy).Contents (Elt Ideal))
    (x2 : (⟨S1, .f32⟩ : BufTy).Contents (Elt Ideal)) (x3 : (⟨S2048x2048, .f32⟩ : BufTy).Contents (Elt Ideal))
    (x4 : (⟨S2048, .f32⟩ : BufTy).Contents (Elt Ideal)) (x5 : (⟨S2048x2048, .f32⟩ : BufTy).Contents (Elt Ideal))
    (x6 : (⟨S2048, .f32⟩ : BufTy).Contents (Elt Ideal)) (r : Fin 4096) (j : Fin 2048) :
    val_main_v26 (F := Ideal) x0 x1 x2 x3 x4 x5 x6 (ix2 r j) = Cert.Router.blendConvex x0 x1 x2 x3 x4 x5 x6 r j := by
  simp only [val_main_v26_apply, val_main_v25_apply, val_main_v24_apply, val_main_v23_apply, val_main_v22_apply,
    val_main_cst_1_apply, val_main_v21_apply, val_main_v20_apply, val_main_v19_apply, val_main_call1_v0_apply,
    val_main_call1_cst_apply, val_main_v18_apply, val_main_v17_apply, val_main_v16_apply, val_main_v15_apply,
    val_main_v14_apply, val_main_call0_v0_apply, val_main_call0_cst_apply, val_main_v13_apply, val_main_v12_apply,
    val_main_v11_apply, val_main_v10_apply, val_main_v9_apply, val_main_v8_apply, val_main_cst_0_apply, val_main_v7_apply,
    val_main_v6_apply, val_main_cst_apply, val_main_v5_apply, val_main_v4_apply, val_main_v3_apply, val_main_v2_apply,
    val_main_v1_apply, val_main_v0_apply,
    gate_lhs, gate_rhs, gate_bias, gate_lhs', gate_rhs', gate_bias', left_lhs, left_rhs, left_bias, right_lhs, right_rhs,
    right_bias,
    Ideal.addf_def, Ideal.subf_def, Ideal.mulf_def, Ideal.maximumf_def, Ideal.hostDivf_def, Ideal.hostUnary_exp_def,
    Ideal.hostNegf_def, Ideal.negf_def, Ideal.ofBits_def, Ideal.ofBits_zero_f32, ofBits_one]
  rfl

end Cert.ReferenceIdeal.RouterRef

end
-- ==== Proof.RouterFinite.lean ====
/-
  What the precondition says of the argument arrays at the extended reals: every entry is a real number.

  The precondition is the conjunction, over the seven arrays, of "every entry's absolute value is below +∞". At the
  extended reals the absolute value of `x` is `max x (−x)`, which is `⊤` at both infinities, and the word of +∞ denotes
  `⊤`: so the comparison holds exactly at the reals. A conjunction over all entries (a reduction by `and` from `true`
  into one cell) that came out true was true at every entry.
-/
import proofs.«101099_g16621523435664_cont_week2b_703_2_alg».proof.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

/-- The rank-0 shape has one index. -/
instance : Subsingleton S_.Idx := ⟨fun a b => funext fun d => d.elim0⟩

/-- The word `0x7F800000` (+∞) denotes `⊤`. -/
theorem ofBits_inf : Ideal.ofBits .f32 0x7F800000#32 = ⊤ := by simp [Ideal.ofBits, Ideal.ieee]

/-- An extended real whose absolute value is strictly below `⊤` is a real. -/
theorem real_of_abs_lt (x : EReal) (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- One array's conjunct: if "all entries have absolute value below +∞" came out true, every entry is real. -/
theorem all_real {s : Shape} {axes : List (Fin s.rank)} (a : FVec Ideal s .f32) (b : S_.BroadcastsInDim s (![] : Fin 0 → Fin s.rank))
    (hr : s.ReducesTo axes S_) (hu : 0 < S_.numel)
    (e : Host.reduce IntOp.andi (cmpf .olt (Host.absf a) (broadcastInDim s ![] b (constant (F := Ideal) S_ .f32 0x7F800000#32)))
      (constantI S_ 1 1#1) hr hu ix0 = 1#1) (i : s.Idx) : ∃ r : ℝ, a i = r :=
  real_of_abs_lt (a i) (Host.reduce_andi_all _ _ hr hu ix0 e i)

variable [Facts]

/-- THE PRECONDITION, READ: under it every entry of `x`, of the two branches' weight matrices and of their biases is real. -/
theorem reals_of_pre (a0 : FVec Ideal S4096x2048 .f32) (a1 : FVec Ideal S2048x1 .f32) (a2 : FVec Ideal S1 .f32)
    (a3 : FVec Ideal S2048x2048 .f32) (a4 : FVec Ideal S2048 .f32) (a5 : FVec Ideal S2048x2048 .f32) (a6 : FVec Ideal S2048 .f32)
    (h : fn (F := Ideal) a0 a1 a2 a3 a4 a5 a6 = fun _ => 1#1) :
    (∀ i, ∃ r : ℝ, a0 i = r) ∧ (∀ i, ∃ r : ℝ, a3 i = r) ∧ (∀ i, ∃ r : ℝ, a4 i = r) ∧ (∀ i, ∃ r : ℝ, a5 i = r)
      ∧ (∀ i, ∃ r : ℝ, a6 i = r) := by
  have h0 := congrFun h ix0
  unfold fn fn_part1 at h0
  dsimp only at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨all_real a0 _ _ _ e0, all_real a3 _ _ _ e3, all_real a4 _ _ _ e4, all_real a5 _ _ _ e5, all_real a6 _ _ _ e6⟩

end Cert.Pre_finite_inputs.Finite

end
-- ==== Proof.lean ====
/-
  The certificate of the fused soft two-way router: a kernel that, per block of 256 token rows, computes a logistic gate
  on the row's logit and two relu'd linear branches, and stores `right + gate · (left − right)`, against the reference
  `gate · left + (1 − gate) · right` computed on whole arrays.

  • The three programs run, fault nowhere and leave their arguments unchanged: the two kernel programs by their frame
    runs, the reference by its run with the result dropped.
  • The idealization rewrote nothing, so there is nothing to preserve.
  • At the extended reals both programs end with the same result array. The kernel's ends at the blend of the argument
    arrays, entry by entry (the sixteen written-back blocks cover it, and every staged entry is one entry of an
    argument). The reference's ends at the convex blend of the same arrays: its `1 / (1 + e^{-z})` is the kernel's
    logistic function, its matrix products and the kernel's are the same sums over the contracted index. The two blends
    are one number when `left`, `right` and the gate are real. The gate always is; the branches are because every entry
    of `x`, of the branches' weights and of their biases is — which is what the precondition says of the arguments.
-/
import proofs.«101099_g16621523435664_cont_week2b_703_2_alg».proof.Defs
import proofs.«101099_g16621523435664_cont_week2b_703_2_alg».proof.Proof.Gen.Kernel
import proofs.«101099_g16621523435664_cont_week2b_703_2_alg».proof.Proof.Gen.Kernel.Skeleton
import proofs.«101099_g16621523435664_cont_week2b_703_2_alg».proof.Proof.Gen.Kernel.Launch
import proofs.«101099_g16621523435664_cont_week2b_703_2_alg».proof.Proof.Gen.Kernel.Points
import proofs.«101099_g16621523435664_cont_week2b_703_2_alg».proof.Proof.Gen.Kernel.Frame
import proofs.«101099_g16621523435664_cont_week2b_703_2_alg».proof.Proof.Gen.KernelIdeal
import proofs.«101099_g16621523435664_cont_week2b_703_2_alg».proof.Proof.Gen.KernelIdeal.Skeleton
import proofs.«101099_g16621523435664_cont_week2b_703_2_alg».proof.Proof.Gen.KernelIdeal.Launch
import proofs.«101099_g16621523435664_cont_week2b_703_2_alg».proof.Proof.Gen.KernelIdeal.Points
import proofs.«101099_g16621523435664_cont_week2b_703_2_alg».proof.Proof.Gen.KernelIdeal.Frame
import proofs.«101099_g16621523435664_cont_week2b_703_2_alg».proof.Proof.Gen.ReferenceIdeal
import proofs.«101099_g16621523435664_cont_week2b_703_2_alg».proof.Proof.Gen.Pre_finite_inputs
import proofs.«101099_g16621523435664_cont_week2b_703_2_alg».proof.Proof.Gen.KernelIdeal.Value
import proofs.«101099_g16621523435664_cont_week2b_703_2_alg».proof.Proof.Gen.ReferenceIdeal.Run
import proofs.«101099_g16621523435664_cont_week2b_703_2_alg».proof.Proof.Gen.ReferenceIdeal.Read
import proofs.«101099_g16621523435664_cont_week2b_703_2_alg».proof.Proof.RouterSpec
import proofs.«101099_g16621523435664_cont_week2b_703_2_alg».proof.Proof.RouterBlocks
import proofs.«101099_g16621523435664_cont_week2b_703_2_alg».proof.Proof.RouterRef
import proofs.«101099_g16621523435664_cont_week2b_703_2_alg».proof.Proof.RouterFinite
import Idealize.ShloMosaic.Adequacy
import Idealize.ShloMosaic.Init

noncomputable section

namespace Cert.Proof

open Idealize.ShloMosaic Idealize.SL.Sem Idealize.ShloMosaic.ValueIdx

/-- The kernel as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the blend of the argument arrays: the kernel's run states it; the reference's result
    is the convex blend, which is the blend once the precondition has made `x` and the branches' weights and biases real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.RouterBlocks.result m c, Cert.KernelIdeal.RouterBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  obtain ⟨a0, a1, a2, a3, a4, a5, a6⟩ := hagree c
  rw [a0, a1, a2, a3, a4, a5, a6]
  obtain ⟨hx, hwl, hbl, hwr, hbr⟩ := Cert.Pre_finite_inputs.Finite.reals_of_pre _ _ _ _ _ _ _ (hpre c)
  funext i
  obtain ⟨r, j, rfl⟩ : ∃ (r : Fin 4096) (j : Fin 2048), i = ix2 r j := ⟨i 0, i 1, eq_ix2 i⟩
  rw [Cert.ReferenceIdeal.RouterRef.result_apply]
  exact Cert.Router.blendConvex_eq_blend _ _ _ _ _ _ _ hx hwl hbl hwr hbr r j

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
